-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S64x1024x1024 : Shape := ⟨3, ![64, 1024, 1024]⟩
abbrev S_ : Shape := ⟨0, ![]⟩
abbrev S64x1024 : Shape := ⟨2, ![64, 1024]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel
  reducesTo_S64x1024x1024_S64x1024_d2 : S64x1024x1024.ReducesTo [2] S64x1024
  reducesTo_S64x1024_S_d0_1 : S64x1024.ReducesTo [0, 1] S_

variable [Facts]

def fn_part1 {F : FTy → Type} [FloatOps F] (main_v13 : IVec S_ 1) (main_v15 : IVec S64x1024 1) (main_c_5 : IVec S_ 1) : IVec S_ 1 :=
  let main_v16 : IVec S_ 1 := (fun x v => Host.reduce IntOp.andi x v reducesTo_S64x1024_S_d0_1 h_S_) main_v15 main_c_5
  let main_v17 : IVec S_ 1 := andi main_v13 main_v16
  main_v17

def fn {F : FTy → Type} [FloatOps F] (main_arg0 : FVec F S64x1024x64 .f32) (main_arg1 : FVec F S64x1024x64 .f32) (main_arg2 : FVec F S64x1024x64 .f32) (main_arg3 : IVec S64x1024x1024 1) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  let main_v9 : FVec F S64x1024x64 .f32 := Host.absf main_arg2
  let main_cst_2 : FVec F S_ .f32 := constant S_ .f32 0x7F800000#32
  let main_v10 : FVec F S64x1024x64 .f32 := broadcastInDim S64x1024x64 ![] bcast_S_S64x1024x64 main_cst_2
  let main_v11 : IVec S64x1024x64 1 := cmpf .olt main_v9 main_v10
  let main_c_3 : IVec S_ 1 := constantI S_ 1 1#1
  let main_v12 : IVec S_ 1 := (fun x v => Host.reduce IntOp.andi x v reducesTo_S64x1024x64_S_d0_1_2 h_S_) main_v11 main_c_3
  let main_v13 : IVec S_ 1 := andi main_v8 main_v12
  let main_v14 : IVec S64x1024x1024 1 := noti main_arg3
  let main_c_4 : IVec S_ 1 := constantI S_ 1 0#1
  let main_v15 : IVec S64x1024 1 := (fun x v => Host.reduce IntOp.ori x v reducesTo_S64x1024x1024_S64x1024_d2 h_S_) main_v14 main_c_4
  let main_c_5 : IVec S_ 1 := constantI S_ 1 1#1
  fn_part1 (F := F) main_v13 main_v15 main_c_5
-- ==== Kernel.lean ====
abbrev S64x1024x64 : Shape := ⟨3, ![64, 1024, 64]⟩
abbrev S64x1024x1024 : Shape := ⟨3, ![64, 1024, 1024]⟩
abbrev S1x512x64 : Shape := ⟨3, ![1, 512, 64]⟩
abbrev S1x1024x64 : Shape := ⟨3, ![1, 1024, 64]⟩
abbrev S1x512x1024 : Shape := ⟨3, ![1, 512, 1024]⟩
abbrev S512x64 : Shape := ⟨2, ![512, 64]⟩
abbrev S1024x64 : Shape := ⟨2, ![1024, 64]⟩
abbrev S512x1024 : Shape := ⟨2, ![512, 1024]⟩
abbrev S64x1024 : Shape := ⟨2, ![64, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x1024, .i1⟩
  | .hbm, ⟨4, _⟩ => ⟨S64x1024x1024, .i32⟩
  | .hbm, ⟨5, _⟩ => ⟨S64x1024x64, .f32⟩
  | .hbm, ⟨6, _⟩ => ⟨S64x1024x1024, .f32⟩
  | .local _ .vmem, ⟨0, _⟩ => ⟨S1x512x64, .f32⟩
  | .local _ .vmem, ⟨1, _⟩ => ⟨S1x512x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x512x1024, .i32⟩
  | .local _ .vmem, ⟨7, _⟩ => ⟨S1x512x1024, .i32⟩
  | .local _ .vmem, ⟨8, _⟩ => ⟨S1x512x64, .f32⟩
  | .local _ .vmem, ⟨9, _⟩ => ⟨S1x512x64, .f32⟩
  | .local _ .vmem, ⟨10, _⟩ => ⟨S1x512x1024, .f32⟩
  | .local _ .vmem, ⟨11, _⟩ => ⟨S1x512x1024, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  transposes_S1024x64_p1_0_S64x1024 : S1024x64.Transposes [1, 0] S64x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  broadcasts_S512x1_S512x64 : S512x1.Broadcasts S512x64
  shapeCasts_S512x64_S1x512x64 : S512x64.ShapeCasts S1x512x64
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x1024x64.size a
  hwx0_0 : ∀ i : grid0.Coords, EltTy.bits .f32 = 32 ∨ (Rect.block (s := S64x1024x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x1024x1024.size a
  hwx0_3 : ∀ i : grid0.Coords, EltTy.bits .i32 = 32 ∨ (Rect.block (s := S64x1024x1024) S1x512x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S64x1024x64.size a
  hwx0_4 : ∀ i : grid0.Coords, EltTy.bits .f32 = 32 ∨ (Rect.block (s := S64x1024x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S64x1024x1024.size a
  hwx0_5 : ∀ i : grid0.Coords, EltTy.bits .f32 = 32 ∨ (Rect.block (s := S64x1024x1024) S1x512x1024.size (cc0_transform_5 i) (hinb0_5 i)).WholeWords (EltTy.packing .f32)

variable [Facts₀]

def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩

abbrev nBuf : Space → Nat
  | .hbm => 27
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x1024, .i1⟩
  | .hbm, ⟨4, _⟩ => ⟨S64x1024x1024, .f32⟩
  | .hbm, ⟨5, _⟩ => ⟨S_, .f32⟩
  | .hbm, ⟨6, _⟩ => ⟨S64x1024x1024, .f32⟩
  | .hbm, ⟨7, _⟩ => ⟨S64x1024x1024, .f32⟩
  | .hbm, ⟨8, _⟩ => ⟨S_, .f32⟩
  | .hbm, ⟨9, _⟩ => ⟨S_, .f32⟩
  | .hbm, ⟨10, _⟩ => ⟨S64x1024x1024, .f32⟩
  | .hbm, ⟨11, _⟩ => ⟨S64x1024x1024, .f32⟩
  | .hbm, ⟨12, _⟩ => ⟨S_, .f32⟩
  | .hbm, ⟨13, _⟩ => ⟨S64x1024, .f32⟩
  | .hbm, ⟨14, _⟩ => ⟨S_, .f32⟩
  | .hbm, ⟨15, _⟩ => ⟨S64x1024, .f32⟩
  | .hbm, ⟨16, _⟩ => ⟨S64x1024, .f32⟩
  | .hbm, ⟨17, _⟩ => ⟨S64x1024x1, .f32⟩
  | .hbm, ⟨18, _⟩ => ⟨S64x1024x1024, .f32⟩
  | .hbm, ⟨19, _⟩ => ⟨S64x1024x1024, .f32⟩
  | .hbm, ⟨20, _⟩ => ⟨S64x1024x1024, .f32⟩
  | .hbm, ⟨21, _⟩ => ⟨S_, .f32⟩
  | .hbm, ⟨22, _⟩ => ⟨S64x1024, .f32⟩
  | .hbm, ⟨23, _⟩ => ⟨S64x1024x1, .f32⟩
  | .hbm, ⟨24, _⟩ => ⟨S64x1024x1024, .f32⟩
  | .hbm, ⟨25, _⟩ => ⟨S64x1024x1024, .f32⟩
  | .hbm, ⟨26, _⟩ => ⟨S64x1024x64, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x64_S64x1024x64_S64x1024x1024_2_2_1_1_0_0_wf : DotDims.WF S64x1024x64 S64x1024x64 S64x1024x1024 [2] [2] [1] [1] [0] [0]
  dot_S64x1024x1024_S64x1024x64_S64x1024x64_2_1_1_2_0_0_wf : DotDims.WF S64x1024x1024 S64x1024x64 S64x1024x64 [2] [1] [1] [2] [0] [0]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf

class Facts : Prop extends Facts₀ where

variable [Facts]
-- ==== Proof.Spec.lean ====
/-
  Masked scaled-dot-product attention, row by row, on the extended reals.

  A query row `q : Fin 64 → EReal` meets the 1024 key rows `k c`; a key `c` the mask strikes out scores `-∞`.
  The row's scores `s` are shifted by their maximum, exponentiated, and divided by the sum of the exponentials
  (`soft`); the output row is the `soft`-weighted sum of the value rows. The two programs differ in two places only:
  where the scale `1/8` is applied (to each query entry before the product, or to the finished inner product), and
  whether the normalising division is applied to the weights before the weighted sum or to the sum afterwards.
-/
import Idealize.ShloMosaic.PureOps.Ideal
import Idealize.ShloMosaic.Lib.ValueIdx

noncomputable section

namespace Cert.Attn

open Idealize.ShloMosaic Idealize.ShloMosaic.ValueIdx

/-- The maximum of a row of scores (from `-∞`). -/
def rowMax (s : Fin 1024 → EReal) : EReal := (Finset.univ : Finset (Fin 1024)).fold max ⊥ s

/-- `exp (s c - max s)`. -/
def rowExp (s : Fin 1024 → EReal) (c : Fin 1024) : EReal := Ideal.exp (s c - rowMax s)

/-- The sum of the row's exponentials. -/
def rowSum (s : Fin 1024 → EReal) : EReal := ∑ c : Fin 1024, rowExp s c

/-- The softmax weight of key `c`. -/
def soft (s : Fin 1024 → EReal) (c : Fin 1024) : EReal := Ideal.div (rowExp s c) (rowSum s)

/-- Scores with the scale `1/8` applied to each query entry, the mask a 32-bit word tested against zero. -/
def scoreScaledQuery (q : Fin 64 → EReal) (k : Fin 1024 → Fin 64 → EReal) (mk : Fin 1024 → BitVec 32) (c : Fin 1024) : EReal :=
  Scalar.select (IntOp.cmpi .ne (mk c) 0#32) (Ideal.ofBits .f32 0xFF800000#32)
    (∑ d : Fin 64, (q d * Ideal.ofBits .f32 0x3E000000#32) * k c d)

/-- Scores with the finished inner product divided by `8`, the mask a bit. -/
def scoreDivided (q : Fin 64 → EReal) (k : Fin 1024 → Fin 64 → EReal) (mk : Fin 1024 → BitVec 1) (c : Fin 1024) : EReal :=
  Scalar.select (mk c) (Ideal.ofBits .f32 0xFF800000#32)
    (Ideal.div (∑ d : Fin 64, q d * k c d) (Ideal.ofBits .f32 0x41000000#32))

/-- The output entry as the weighted sum of exponentials, divided once at the end. -/
def outDividedLast (s : Fin 1024 → EReal) (v : Fin 1024 → EReal) : EReal :=
  Ideal.div (∑ c : Fin 1024, rowExp s c * v c) (rowSum s)

/-- The output entry as the sum of normalised weights times values. -/
def outWeighted (s : Fin 1024 → EReal) (v : Fin 1024 → EReal) : EReal :=
  ∑ c : Fin 1024, soft s c * v c

/-! ### The whole arrays, index by index (batch `i 0`, query `i 1`) -/

abbrev A64x1024x64 : Shape := ⟨3, ![64, 1024, 64]⟩
abbrev A64x1024x1024 : Shape := ⟨3, ![64, 1024, 1024]⟩

/-- Query row `(b, r)` of `Q`. -/
def qRow (Q : A64x1024x64.Idx → EReal) (b : Fin 64) (r : Fin 1024) : Fin 64 → EReal := fun d => Q (ix3 b r d)
/-- The key (or value) rows of batch `b`. -/
def kRows (K : A64x1024x64.Idx → EReal) (b : Fin 64) : Fin 1024 → Fin 64 → EReal := fun c d => K (ix3 b c d)
/-- Mask row `(b, r)`. -/
def mRow {α : Type} (M : A64x1024x1024.Idx → α) (b : Fin 64) (r : Fin 1024) : Fin 1024 → α := fun c => M (ix3 b r c)
/-- Column `d` of the value rows of batch `b`. -/
def vCol (V : A64x1024x64.Idx → EReal) (b : Fin 64) (d : Fin 64) : Fin 1024 → EReal := fun c => V (ix3 b c d)

/-- The attention weights the reference returns. -/
def attnRef (Q K : A64x1024x64.Idx → EReal) (M : A64x1024x1024.Idx → BitVec 1) : A64x1024x1024.Idx → EReal :=
  fun i => soft (scoreDivided (qRow Q (i 0) (i 1)) (kRows K (i 0)) (mRow M (i 0) (i 1))) (i 2)

/-- The output the reference returns. -/
def outRef (Q K V : A64x1024x64.Idx → EReal) (M : A64x1024x1024.Idx → BitVec 1) : A64x1024x64.Idx → EReal :=
  fun i => outWeighted (scoreDivided (qRow Q (i 0) (i 1)) (kRows K (i 0)) (mRow M (i 0) (i 1))) (vCol V (i 0) (i 2))

/-- The attention weights the kernel writes (mask widened to 32-bit words). -/
def attnKer (Q K : A64x1024x64.Idx → EReal) (M : A64x1024x1024.Idx → BitVec 32) : A64x1024x1024.Idx → EReal :=
  fun i => soft (scoreScaledQuery (qRow Q (i 0) (i 1)) (kRows K (i 0)) (mRow M (i 0) (i 1))) (i 2)

/-- The output the kernel writes. -/
def outKer (Q K V : A64x1024x64.Idx → EReal) (M : A64x1024x1024.Idx → BitVec 32) : A64x1024x64.Idx → EReal :=
  fun i => outDividedLast (scoreScaledQuery (qRow Q (i 0) (i 1)) (kRows K (i 0)) (mRow M (i 0) (i 1))) (vCol V (i 0) (i 2))

end Cert.Attn

end
-- ==== Proof.LibReduceAny.lean ====
/-
  A printed predicate's `jnp.any`, read back. `jnp.any(p, axis)` prints as a one-operand `stablehlo.reduce` of the
  `i1` array `p` by `or`, from the constant 0 (`Host.reduce IntOp.ori p init …`). The companion of
  Lib/ReduceAll.lean's reading of `jnp.all`: where a reduce by `and` that is 1 met only 1s, a reduce by `or` that is 1
  started at 1 or met a 1. `IntOp.foldl_ori_eq_one`: the list fold; `Host.reduce_ori_eq_one`: the reduce at a result
  index `j`, the witness an operand index that drops to `j`; `Host.reduce_ori_any`: from an initial value 0, the witness
  alone. `Host.reduce_ori_eq_one_iff` is the two directions together.
-/
import Idealize.ShloMosaic.Lib.Affine
import Idealize.ShloMosaic.PureOps.Reduce

namespace Idealize.ShloMosaic

namespace IntOp

/-- A left fold by `or` over `i1` words that came out 1 started at 1 or met a 1. -/
theorem foldl_ori_eq_one {ι : Type} (f : ι → BitVec 1) :
    ∀ (l : List ι) (init : BitVec 1), l.foldl (fun r n => ori r (f n)) init = 1#1 → init = 1#1 ∨ ∃ n ∈ l, f n = 1#1
  | [], _, h => Or.inl h
  | a :: l, init, h => by
    rcases foldl_ori_eq_one f l _ h with h1 | ⟨n, hn, hf⟩
    · rcases ori_eq_one.1 h1 with hi | ha
      · exact Or.inl hi
      · exact Or.inr ⟨a, List.mem_cons_self, ha⟩
    · exact Or.inr ⟨n, List.mem_cons_of_mem _ hn, hf⟩

/-- Conversely a left fold by `or` that started at 1 or meets a 1 comes out 1. -/
theorem foldl_ori_of_one {ι : Type} (f : ι → BitVec 1) :
    ∀ (l : List ι) (init : BitVec 1), (init = 1#1 ∨ ∃ n ∈ l, f n = 1#1) → l.foldl (fun r n => ori r (f n)) init = 1#1
  | [], _, h => h.elim id fun ⟨_, hn, _⟩ => nomatch hn
  | a :: l, init, h => by
    refine foldl_ori_of_one f l _ ?_
    rcases h with hi | ⟨n, hn, hf⟩
    · exact Or.inl (ori_eq_one.2 (Or.inl hi))
    · rcases List.mem_cons.1 hn with rfl | hn
      · exact Or.inl (ori_eq_one.2 (Or.inr hf))
      · exact Or.inr ⟨n, hn, hf⟩

end IntOp

namespace Host

variable {s t u : Shape} {axes : List (Fin s.rank)}

/-- A `stablehlo.reduce` by `or` is 1 at `j` exactly when its initial value is 1 or the operand has a 1 at some index
    that reduces into `j`. -/
theorem reduce_ori_eq_one_iff (x : s.Idx → BitVec 1) (init : u.Idx → BitVec 1) (h : s.ReducesTo axes t) (hu : 0 < u.numel)
    (j : t.Idx) :
    Host.reduce IntOp.ori x init h hu j = 1#1 ↔ init (Shape.Idx.first hu) = 1#1 ∨ ∃ i : s.Idx, h.drop i = j ∧ x i = 1#1 := by
  rw [Host.reduce_eq_foldl]
  constructor
  · intro e
    rcases IntOp.foldl_ori_eq_one x _ _ e with h0 | ⟨i, hi, hx⟩
    · exact Or.inl h0
    · exact Or.inr ⟨i, by simpa using (List.mem_filter.1 hi).2, hx⟩
  · intro e
    refine IntOp.foldl_ori_of_one x _ _ (e.imp_right ?_)
    rintro ⟨i, hi, hx⟩
    refine ⟨i, List.mem_filter.2 ⟨?_, by simp [hi]⟩, hx⟩
    exact List.mem_map.2 ⟨s.rowMajor i, List.mem_finRange _, Equiv.symm_apply_apply _ _⟩

/-- A `stablehlo.reduce` by `or` that is 1 at `j` started at 1 or had a 1 at some operand index that reduces into `j`. -/
theorem reduce_ori_eq_one (x : s.Idx → BitVec 1) (init : u.Idx → BitVec 1) (h : s.ReducesTo axes t) (hu : 0 < u.numel)
    (j : t.Idx) (e : Host.reduce IntOp.ori x init h hu j = 1#1) :
    init (Shape.Idx.first hu) = 1#1 ∨ ∃ i : s.Idx, h.drop i = j ∧ x i = 1#1 :=
  (reduce_ori_eq_one_iff x init h hu j).1 e

/-- `jnp.any`: a reduce by `or` from 0 that is 1 at `j` had a 1 at some operand index that reduces into `j`. -/
theorem reduce_ori_any (x : s.Idx → BitVec 1) (init : u.Idx → BitVec 1) (h : s.ReducesTo axes t) (hu : 0 < u.numel)
    (h0 : init (Shape.Idx.first hu) = 0#1) (j : t.Idx) (e : Host.reduce IntOp.ori x init h hu j = 1#1) :
    ∃ i : s.Idx, h.drop i = j ∧ x i = 1#1 := by
  rcases reduce_ori_eq_one x init h hu j e with h1 | hw
  · rw [h0] at h1; exact absurd h1 (by decide)
  · exact hw

end Host

end Idealize.ShloMosaic
-- ==== Proof.PreFacts.lean ====
/-
  The precondition, read back. It is the conjunction of four tests: `|q| < +∞`, `|k| < +∞`,
  `|v| < +∞` at every entry, and "every (batch, query) row of the mask has an entry that is 0". On the extended reals the
  first three say that every entry of the three arrays is a real number; the fourth gives, for each row, a key the mask
  does not strike out.
-/
import proofs.«155958_j65343632441709_2_alg».proof.Pre_finite_inputs
import proofs.«155958_j65343632441709_2_alg».proof.Proof.LibReduceAny
import Idealize.ShloMosaic.Lib.ReduceAll
import Idealize.ShloMosaic.Lib.ValueIdx
import Idealize.ShloMosaic.PureOps.Ideal

noncomputable section

namespace Cert.Attn

open Idealize.ShloMosaic Idealize.ShloMosaic.ValueIdx
open Cert.Pre_finite_inputs

/-- The scalar shape has one index. -/
instance subsingleton_scalar_idx : Subsingleton S_.Idx := ⟨fun _ _ => funext fun d => d.elim0⟩

/-- An extended real whose absolute value `max x (-x)` is below `+∞` is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- The test `|x| < +∞` on one entry (the pattern `0x7F800000` is `+∞`): it is 1 only at a real number. -/
theorem exists_real_of_finite_test (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  apply exists_real_of_abs_lt_top
  by_contra hn
  simp [hn] at h

/-- A bit whose complement is 1 is 0. -/
theorem eq_zero_of_not_eq_one (c : BitVec 1) (h : ~~~c = 1#1) : c = 0#1 := by revert c; decide

/-- What the precondition says: the entries of `Q`, `K`, `V` are real numbers, and every mask row has a 0. -/
theorem pre_facts [Cert.Pre_finite_inputs.Facts] (Q K V : FVec Ideal Cert.Pre_finite_inputs.S64x1024x64 .f32)
    (M : IVec Cert.Pre_finite_inputs.S64x1024x1024 1)
    (h : Cert.Pre_finite_inputs.fn (F := Ideal) Q K V M = (fun _ => 1#1)) :
    (∀ i, ∃ r : ℝ, Q i = (r : EReal)) ∧ (∀ i, ∃ r : ℝ, K i = (r : EReal)) ∧ (∀ i, ∃ r : ℝ, V i = (r : EReal))
    ∧ ∀ (b : Fin 64) (r : Fin 1024), ∃ c : Fin 1024, M (ValueIdx.ix3 b r c) = 0#1 := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun b r => ?_⟩
  · exact exists_real_of_finite_test (Q i) (Host.reduce_andi_all _ _ _ _ _ h1 i)
  · exact exists_real_of_finite_test (K i) (Host.reduce_andi_all _ _ _ _ _ h2 i)
  · exact exists_real_of_finite_test (V i) (Host.reduce_andi_all _ _ _ _ _ h3 i)
  · have hr := Host.reduce_andi_all _ _ _ _ _ h4 (ix2 b r)
    obtain ⟨i, hi, hx⟩ := Host.reduce_ori_any _ _ _ _ rfl _ hr
    have e0 : (i 0 : Nat) = b := by
      rw [← Shape.ReducesTo.drop_apply_val_of_eq Facts.reducesTo_S64x1024x1024_S64x1024_d2 i 0 0, hi]
    have e1 : (i 1 : Nat) = r := by
      rw [← Shape.ReducesTo.drop_apply_val_of_eq Facts.reducesTo_S64x1024x1024_S64x1024_d2 i 1 1, hi]
    refine ⟨i 2, ?_⟩
    have e : ix3 b r (i 2) = i := by
      funext a
      match a with
      | ⟨0, _⟩ => exact Fin.ext e0.symm
      | ⟨1, _⟩ => exact Fin.ext e1.symm
      | ⟨2, _⟩ => rfl
    exact (congrArg M e).trans (eq_zero_of_not_eq_one _ hx)

end Cert.Attn

end
-- ==== Proof.RefIsSpec.lean ====
import proofs.«155958_j65343632441709_2_alg».proof.Proof.Gen.ReferenceIdeal.Read
import proofs.«155958_j65343632441709_2_alg».proof.Proof.Spec
import Idealize.ShloMosaic.PureOps.Reduce

noncomputable section

namespace Cert.ReferenceIdeal.RefSpec

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Attn

/-! The reference program, stage by stage, is the row-by-row specification: at batch `b` and query row `r` every
    intermediate array holds the corresponding quantity of the score row
    `s = scoreDivided (qRow Q b r) (kRows K b) (mRow M b r)`. -/

/-- The word `0xFF800000` is `-∞`. -/
theorem negInf : Ideal.ofBits .f32 0xFF800000#32 = (⊥ : EReal) := by simp [Ideal.ofBits, Ideal.ieee]

/-! ### Index equations: the composed index functions of the stages, at an index given by coordinates -/

theorem lidx0 (b : Fin 64) (r c : Fin 1024) (k : Fin 64) : lidx_main_v0 (ix3 b r c) k = ix3 b r k :=
  funext fun a => Fin.ext (by match a with | ⟨0, _⟩ => rfl | ⟨1, _⟩ => rfl | ⟨2, _⟩ => rfl)
theorem ridx0 (b : Fin 64) (r c : Fin 1024) (k : Fin 64) : ridx_main_v0 (ix3 b r c) k = ix3 b c k :=
  funext fun a => Fin.ext (by match a with | ⟨0, _⟩ => rfl | ⟨1, _⟩ => rfl | ⟨2, _⟩ => rfl)
theorem idx78 (b : Fin 64) (r c : Fin 1024) : idx_main_v7 (idx_main_v8 (ix3 b r c)) = ix2 b r :=
  funext fun a => Fin.ext (by match a with | ⟨0, _⟩ => rfl | ⟨1, _⟩ => rfl)
theorem idx11 (b : Fin 64) (r k : Fin 1024) : idx_main_v11 (ix2 b r) k = ix3 b r k :=
  funext fun a => Fin.ext (by match a with | ⟨0, _⟩ => rfl | ⟨1, _⟩ => rfl | ⟨2, _⟩ => rfl)
theorem idx1213 (b : Fin 64) (r c : Fin 1024) : idx_main_v12 (idx_main_v13 (ix3 b r c)) = ix2 b r :=
  funext fun a => Fin.ext (by match a with | ⟨0, _⟩ => rfl | ⟨1, _⟩ => rfl)
theorem lidx15 (b : Fin 64) (r : Fin 1024) (d : Fin 64) (k : Fin 1024) : lidx_main_v15 (ix3 b r d) k = ix3 b r k :=
  funext fun a => Fin.ext (by match a with | ⟨0, _⟩ => rfl | ⟨1, _⟩ => rfl | ⟨2, _⟩ => rfl)
theorem ridx15 (b : Fin 64) (r : Fin 1024) (d : Fin 64) (k : Fin 1024) : ridx_main_v15 (ix3 b r d) k = ix3 b k d :=
  funext fun a => Fin.ext (by match a with | ⟨0, _⟩ => rfl | ⟨1, _⟩ => rfl | ⟨2, _⟩ => rfl)

/-- The reduced index `(b, r)` with the key coordinate `k` put back is `(b, r, k)`. -/
theorem lift_d2 (h : S64x1024x1024.Reduces [2] S64x1024) (b : Fin 64) (r : Fin 1024) (k : Fin (S64x1024x1024.size 2)) :
    h.lift (ix2 b r) k = ix3 b r (⟨k.val, k.isLt⟩ : Fin 1024) := by
  funext c; apply Fin.ext
  fin_cases c <;> rfl

section
variable (x0 x1 x2 : (⟨S64x1024x64, .f32⟩ : BufTy).Contents (Elt Ideal)) (x3 : (⟨S64x1024x1024, .i1⟩ : BufTy).Contents (Elt Ideal))
variable (b : Fin 64) (r : Fin 1024)

/-- The masked, divided score of key `c`. -/
theorem v3_at (c : Fin 1024) :
    val_main_v3 (F := Ideal) x0 x1 x3 (ix3 b r c) = scoreDivided (qRow x0 b r) (kRows x1 b) (mRow x3 b r) c := by
  rw [val_main_v3_apply, val_main_call0_v1_apply, val_main_call0_v0_apply, val_main_cst_0_apply, val_main_v2_apply,
    val_main_v0_apply, val_main_v1_apply, val_main_cst_apply]
  simp only [Ideal.ofBits_def, Ideal.hostDivf_def, lidx0, ridx0]
  rfl

/-- The reduce by maximum over the key axis is the row's maximum. -/
theorem v4_at :
    val_main_v4 (F := Ideal) x0 x1 x3 (ix2 b r) = rowMax (scoreDivided (qRow x0 b r) (kRows x1 b) (mRow x3 b r)) := by
  have h : S64x1024x1024.Reduces [2] S64x1024 := by decide
  unfold val_main_v4
  rw [Host.reduce_eq_fold_single FloatOps.maximumf _ _ reducesTo_S64x1024x1024_S64x1024_d2 h h_S_]
  have hf : (val_main_v3 (F := Ideal) x0 x1 x3 ∘ h.lift (ix2 b r))
      = fun k : Fin (S64x1024x1024.size 2) => scoreDivided (qRow x0 b r) (kRows x1 b) (mRow x3 b r) (⟨k.val, k.isLt⟩ : Fin 1024) :=
    funext fun k => by
      show val_main_v3 (F := Ideal) x0 x1 x3 (h.lift (ix2 b r) k) = _
      rw [lift_d2 h b r k]
      exact v3_at x0 x1 x3 b r _
  rw [hf, val_main_cst_1_apply, Ideal.ofBits_def, negInf]
  rfl

/-- The maximum with `-∞` changes nothing. -/
theorem v6_at :
    val_main_v6 (F := Ideal) x0 x1 x3 (ix2 b r) = rowMax (scoreDivided (qRow x0 b r) (kRows x1 b) (mRow x3 b r)) := by
  rw [val_main_v6_apply, v4_at, val_main_v5_apply, val_main_cst_2_apply, Ideal.ofBits_def, negInf, Ideal.maximumf_def]
  exact max_eq_right bot_le

/-- The exponential of the shifted score. -/
theorem v10_at (c : Fin 1024) :
    val_main_v10 (F := Ideal) x0 x1 x3 (ix3 b r c) = rowExp (scoreDivided (qRow x0 b r) (kRows x1 b) (mRow x3 b r)) c := by
  rw [val_main_v10_apply, val_main_v9_apply, val_main_v8_apply, val_main_v7_apply, idx78, v6_at, v3_at,
    Ideal.hostUnary_exp_def, Ideal.subf_def]
  rfl

/-- The sum of the row's exponentials. -/
theorem v11_at :
    val_main_v11 (F := Ideal) x0 x1 x3 (ix2 b r) = rowSum (scoreDivided (qRow x0 b r) (kRows x1 b) (mRow x3 b r)) := by
  rw [val_main_v11_apply, val_main_cst_3_apply, Ideal.ofBits_def, Ideal.ofBits_zero_f32, zero_add]
  unfold rowSum
  exact Finset.sum_congr rfl fun k _ => by rw [idx11, v10_at]

/-- The softmax weight. -/
theorem v14_at (c : Fin 1024) :
    val_main_v14 (F := Ideal) x0 x1 x3 (ix3 b r c) = soft (scoreDivided (qRow x0 b r) (kRows x1 b) (mRow x3 b r)) c := by
  rw [val_main_v14_apply, val_main_v13_apply, val_main_v12_apply, idx1213, v11_at, v10_at, Ideal.hostDivf_def]
  rfl

/-- The weighted sum of the value rows. -/
theorem v15_at (d : Fin 64) :
    val_main_v15 (F := Ideal) x0 x1 x2 x3 (ix3 b r d)
      = outWeighted (scoreDivided (qRow x0 b r) (kRows x1 b) (mRow x3 b r)) (vCol x2 b d) := by
  rw [val_main_v15_apply]
  unfold outWeighted
  exact Finset.sum_congr rfl fun k _ => by rw [lidx15, ridx15, v14_at]; rfl

end

/-- The attention weights of the reference program are the specification's. -/
theorem ref_attn (x0 x1 : (⟨S64x1024x64, .f32⟩ : BufTy).Contents (Elt Ideal)) (x3 : (⟨S64x1024x1024, .i1⟩ : BufTy).Contents (Elt Ideal)) :
    Cert.ReferenceIdeal.Read.val_main_v14 (F := Ideal) x0 x1 x3 = Cert.Attn.attnRef x0 x1 x3 := by
  funext i
  obtain ⟨b, r, c, rfl⟩ : ∃ b r c, i = ix3 b r c := ⟨i 0, i 1, i 2, eq_ix3 i⟩
  rw [v14_at]
  rfl

/-- The output of the reference program is the specification's. -/
theorem ref_out (x0 x1 x2 : (⟨S64x1024x64, .f32⟩ : BufTy).Contents (Elt Ideal)) (x3 : (⟨S64x1024x1024, .i1⟩ : BufTy).Contents (Elt Ideal)) :
    Cert.ReferenceIdeal.Read.val_main_v15 (F := Ideal) x0 x1 x2 x3 = Cert.Attn.outRef x0 x1 x2 x3 := by
  funext i
  obtain ⟨b, r, d, rfl⟩ : ∃ b r d, i = ix3 b r d := ⟨i 0, i 1, i 2, eq_ix3 i⟩
  rw [v15_at]
  rfl

end Cert.ReferenceIdeal.RefSpec

end
-- ==== Proof.SoftmaxLaws.lean ====
/-
  The algebra of one attention row on the extended reals.

  * Scaling each query entry by 1/8 before the inner product, or dividing the finished inner product by 8,
    give the same score when the entries are real; a mask bit widened to a word and tested against zero
    is the bit itself.
  * A score is never +∞: it is the fill -∞ or a real; it is real where the mask bit is clear.
  * For a row of scores with no +∞ and at least one real entry the maximum M is real, every exp (s c - M) is a
    nonnegative real, at least one is positive, so their sum L is a positive real; dividing the weighted sum of
    exponentials by L, or dividing each exponential by L before weighting, is then the same real number.
-/
import proofs.«155958_j65343632441709_2_alg».proof.Proof.Spec

noncomputable section

namespace Cert.Attn

open Idealize.ShloMosaic
open scoped BigOperators

/-! ### The three literals -/

/-- The pattern 0x3E000000 is the real 1/8. -/
theorem ofBits_eighth : Ideal.ofBits .f32 0x3E000000#32 = ((1 / 8 : ℝ) : EReal) := by
  simp [Ideal.ofBits, Ideal.ieee, -EReal.coe_mul]; norm_num

/-- The pattern 0x41000000 is the real 8. -/
theorem ofBits_eight : Ideal.ofBits .f32 0x41000000#32 = ((8 : ℝ) : EReal) := by
  simp [Ideal.ofBits, Ideal.ieee, -EReal.coe_mul]; norm_num

/-- The pattern 0xFF800000 is -∞. -/
theorem ofBits_negInf : Ideal.ofBits .f32 0xFF800000#32 = ⊥ := by
  simp [Ideal.ofBits, Ideal.ieee]

/-! ### Finite sums of reals -/

/-- A finite sum of reals, read in the extended reals, is the sum of the readings. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ### The mask -/

/-- A bit widened to a word differs from zero exactly when the bit is set. -/
theorem cmpi_ne_setWidth (b : BitVec 1) : IntOp.cmpi .ne (b.setWidth 32) 0#32 = b := by
  rcases BitVec.eq_zero_or_eq_one b with rfl | rfl <;> decide

/-! ### The scores -/

/-- With real entries, the inner product divided by 8 is a real. -/
theorem dot_div_eight (a : Fin 64 → ℝ) (b : Fin 64 → ℝ) :
    Ideal.div (∑ d : Fin 64, (a d : EReal) * (b d : EReal)) (Ideal.ofBits .f32 0x41000000#32)
      = (((∑ d : Fin 64, a d * b d) * (1 / 8) : ℝ) : EReal) := by
  rw [ofBits_eight, Ideal.div_coe (by norm_num : (8 : ℝ) ≠ 0)]
  simp only [← EReal.coe_mul]
  rw [← coe_sum, ← EReal.coe_mul]

/-- With real entries, the inner product of the scaled query is the same real. -/
theorem dot_scaled (a : Fin 64 → ℝ) (b : Fin 64 → ℝ) :
    (∑ d : Fin 64, ((a d : EReal) * Ideal.ofBits .f32 0x3E000000#32) * (b d : EReal))
      = (((∑ d : Fin 64, a d * b d) * (1 / 8) : ℝ) : EReal) := by
  rw [ofBits_eighth]
  simp only [← EReal.coe_mul]
  rw [← coe_sum, Finset.sum_mul]
  congr 1
  refine Finset.sum_congr rfl fun d _ => ?_
  ring

theorem scoreScaledQuery_eq_scoreDivided (q : Fin 64 → EReal) (k : Fin 1024 → Fin 64 → EReal) (mk : Fin 1024 → BitVec 1)
    (hq : ∀ d, ∃ r : ℝ, q d = (r : EReal)) (hk : ∀ c d, ∃ r : ℝ, k c d = (r : EReal)) :
    scoreScaledQuery q k (fun c => (mk c).setWidth 32) = scoreDivided q k mk := by
  choose a ha using hq
  choose b hb using hk
  funext c
  unfold scoreScaledQuery scoreDivided
  rw [cmpi_ne_setWidth]
  simp only [ha, hb]
  rw [dot_scaled, dot_div_eight]

/-- A score is the fill -∞ or a real. -/
theorem scoreDivided_cases (q : Fin 64 → EReal) (k : Fin 1024 → Fin 64 → EReal) (mk : Fin 1024 → BitVec 1)
    (hq : ∀ d, ∃ r : ℝ, q d = (r : EReal)) (hk : ∀ c d, ∃ r : ℝ, k c d = (r : EReal)) (c : Fin 1024) :
    (mk c = 1 ∧ scoreDivided q k mk c = ⊥) ∨ (mk c ≠ 1 ∧ ∃ r : ℝ, scoreDivided q k mk c = (r : EReal)) := by
  choose a ha using hq
  choose b hb using hk
  unfold scoreDivided Scalar.select
  by_cases h : mk c = 1
  · left
    exact ⟨h, by rw [if_pos h, ofBits_negInf]⟩
  · right
    refine ⟨h, (∑ d : Fin 64, a d * b c d) * (1 / 8), ?_⟩
    rw [if_neg h]
    simp only [ha, hb]
    exact dot_div_eight a (b c)

theorem scoreDivided_ne_top (q : Fin 64 → EReal) (k : Fin 1024 → Fin 64 → EReal) (mk : Fin 1024 → BitVec 1)
    (hq : ∀ d, ∃ r : ℝ, q d = (r : EReal)) (hk : ∀ c d, ∃ r : ℝ, k c d = (r : EReal)) (c : Fin 1024) :
    scoreDivided q k mk c ≠ ⊤ := by
  rcases scoreDivided_cases q k mk hq hk c with ⟨_, h⟩ | ⟨_, r, h⟩
  · rw [h]; exact bot_ne_top
  · rw [h]; exact EReal.coe_ne_top r

theorem scoreDivided_ne_bot (q : Fin 64 → EReal) (k : Fin 1024 → Fin 64 → EReal) (mk : Fin 1024 → BitVec 1)
    (hq : ∀ d, ∃ r : ℝ, q d = (r : EReal)) (hk : ∀ c d, ∃ r : ℝ, k c d = (r : EReal)) (c : Fin 1024)
    (hc : mk c = 0#1) : scoreDivided q k mk c ≠ ⊥ := by
  rcases scoreDivided_cases q k mk hq hk c with ⟨h1, _⟩ | ⟨_, r, h⟩
  · rw [hc] at h1; exact absurd h1 (by decide)
  · rw [h]; exact EReal.coe_ne_bot r

/-! ### The row maximum and the exponentials -/

/-- With no +∞ and one entry above -∞, the row maximum is a real. -/
theorem rowMax_real (s : Fin 1024 → EReal) (hs : ∀ c, s c ≠ ⊤) (h0 : ∃ c, s c ≠ ⊥) :
    ∃ M : ℝ, rowMax s = (M : EReal) := by
  have htop : rowMax s ≠ ⊤ := by
    apply ne_of_lt
    unfold rowMax
    rw [Finset.fold_max_lt]
    exact ⟨bot_lt_top, fun c _ => lt_top_iff_ne_top.mpr (hs c)⟩
  have hbot : rowMax s ≠ ⊥ := by
    apply ne_of_gt
    unfold rowMax
    rw [Finset.lt_fold_max]
    obtain ⟨c, hc⟩ := h0
    exact Or.inr ⟨c, Finset.mem_univ c, bot_lt_iff_ne_bot.mpr hc⟩
  exact ⟨(rowMax s).toReal, (EReal.coe_toReal htop hbot).symm⟩

/-- Under the same hypotheses every exponential is a nonnegative real, positive where the score is real. -/
theorem rowExp_real (s : Fin 1024 → EReal) (hs : ∀ c, s c ≠ ⊤) (h0 : ∃ c, s c ≠ ⊥) (c : Fin 1024) :
    ∃ e : ℝ, rowExp s c = (e : EReal) ∧ 0 ≤ e ∧ (s c ≠ ⊥ → 0 < e) := by
  obtain ⟨M, hM⟩ := rowMax_real s hs h0
  unfold rowExp
  rw [hM]
  induction h : s c using EReal.rec with
  | bot => exact ⟨0, by rw [EReal.bot_sub, Ideal.exp_bot, EReal.coe_zero], le_refl 0, fun hne => absurd rfl hne⟩
  | top => exact absurd h (hs c)
  | coe r =>
    refine ⟨Real.exp (r - M), ?_, (Real.exp_pos _).le, fun _ => Real.exp_pos _⟩
    rw [← EReal.coe_sub, Ideal.exp_coe]

/-! ### Dividing last, or dividing each weight -/

/-- For real exponentials, real values and a nonzero real sum, the two orders of division agree. -/
theorem div_last_eq_weighted (e w : Fin 1024 → ℝ) (L : ℝ) (hL : L ≠ 0) :
    Ideal.div (∑ c : Fin 1024, (e c : EReal) * (w c : EReal)) (L : EReal)
      = ∑ c : Fin 1024, Ideal.div (e c : EReal) (L : EReal) * (w c : EReal) := by
  simp only [Ideal.div_coe hL, ← EReal.coe_mul]
  rw [← coe_sum, ← coe_sum, ← EReal.coe_mul, Finset.sum_mul]
  congr 1
  refine Finset.sum_congr rfl fun c _ => ?_
  ring

theorem outDividedLast_eq_outWeighted (s v : Fin 1024 → EReal) (hs : ∀ c, s c ≠ ⊤) (h0 : ∃ c, s c ≠ ⊥)
    (hv : ∀ c, ∃ r : ℝ, v c = (r : EReal)) : outDividedLast s v = outWeighted s v := by
  choose w hw using hv
  choose e he hnn hpos using rowExp_real s hs h0
  have hsum : rowSum s = ((∑ c : Fin 1024, e c : ℝ) : EReal) := by
    unfold rowSum
    simp only [he]
    rw [coe_sum]
  have hL : (∑ c : Fin 1024, e c) ≠ 0 := by
    obtain ⟨c0, hc0⟩ := h0
    exact (Finset.sum_pos' (fun c _ => hnn c) ⟨c0, Finset.mem_univ c0, hpos c0 hc0⟩).ne'
  unfold outDividedLast outWeighted soft
  simp only [he, hw, hsum]
  exact div_last_eq_weighted e w _ hL

end Cert.Attn

end
-- ==== Proof.Bridge.lean ====
/-
  The two programs' whole arrays, index by index.

  At every index the kernel's scores (query scaled by 1/8, mask widened to a word) are the reference's scores
  (inner product divided by 8, mask a bit), so the attention weights agree. Where every mask row leaves at least
  one key unmasked, the row's scores have no +∞ and one real entry, so dividing the weighted sum last, or each
  weight first, gives the same output entry.
-/
import proofs.«155958_j65343632441709_2_alg».proof.Proof.Spec
import proofs.«155958_j65343632441709_2_alg».proof.Proof.SoftmaxLaws

noncomputable section

namespace Cert.Attn

open Idealize.ShloMosaic Idealize.ShloMosaic.ValueIdx

/-- The row of the widened mask is the widened row of the mask. -/
theorem mRow_setWidth (M : A64x1024x1024.Idx → BitVec 1) (b : Fin 64) (r : Fin 1024) :
    mRow (fun i => (M i).setWidth 32) b r = fun c => (mRow M b r c).setWidth 32 := rfl

/-- The kernel's scores of row (b, r) are the reference's. -/
theorem scores_eq (Q K : A64x1024x64.Idx → EReal) (M : A64x1024x1024.Idx → BitVec 1)
    (hQ : ∀ i, ∃ r : ℝ, Q i = (r : EReal)) (hK : ∀ i, ∃ r : ℝ, K i = (r : EReal)) (b : Fin 64) (r : Fin 1024) :
    scoreScaledQuery (qRow Q b r) (kRows K b) (mRow (fun i => (M i).setWidth 32) b r)
      = scoreDivided (qRow Q b r) (kRows K b) (mRow M b r) := by
  rw [mRow_setWidth]
  exact scoreScaledQuery_eq_scoreDivided (qRow Q b r) (kRows K b) (mRow M b r)
    (fun d => hQ (ix3 b r d)) (fun c d => hK (ix3 b c d))

theorem attnKer_eq_attnRef (Q K : A64x1024x64.Idx → EReal) (M : A64x1024x1024.Idx → BitVec 1)
    (hQ : ∀ i, ∃ r : ℝ, Q i = (r : EReal)) (hK : ∀ i, ∃ r : ℝ, K i = (r : EReal)) :
    attnKer Q K (fun i => (M i).setWidth 32) = attnRef Q K M := by
  funext i
  unfold attnKer attnRef
  exact congrArg (fun s => soft s (i 2)) (scores_eq Q K M hQ hK (i 0) (i 1))

theorem outKer_eq_outRef (Q K V : A64x1024x64.Idx → EReal) (M : A64x1024x1024.Idx → BitVec 1)
    (hQ : ∀ i, ∃ r : ℝ, Q i = (r : EReal)) (hK : ∀ i, ∃ r : ℝ, K i = (r : EReal)) (hV : ∀ i, ∃ r : ℝ, V i = (r : EReal))
    (hM : ∀ (b : Fin 64) (r : Fin 1024), ∃ c : Fin 1024, M (ValueIdx.ix3 b r c) = 0#1) :
    outKer Q K V (fun i => (M i).setWidth 32) = outRef Q K V M := by
  funext i
  unfold outKer outRef
  have hs := scores_eq Q K M hQ hK (i 0) (i 1)
  have hq : ∀ d, ∃ r : ℝ, qRow Q (i 0) (i 1) d = (r : EReal) := fun d => hQ (ix3 (i 0) (i 1) d)
  have hk : ∀ c d, ∃ r : ℝ, kRows K (i 0) c d = (r : EReal) := fun c d => hK (ix3 (i 0) c d)
  have h0 : ∃ c, scoreDivided (qRow Q (i 0) (i 1)) (kRows K (i 0)) (mRow M (i 0) (i 1)) c ≠ ⊥ := by
    obtain ⟨c, hc⟩ := hM (i 0) (i 1)
    exact ⟨c, scoreDivided_ne_bot _ _ _ hq hk c hc⟩
  have h2 := outDividedLast_eq_outWeighted
    (scoreDivided (qRow Q (i 0) (i 1)) (kRows K (i 0)) (mRow M (i 0) (i 1))) (vCol V (i 0) (i 2))
    (fun c => scoreDivided_ne_top _ _ _ hq hk c) h0 (fun c => hV (ix3 (i 0) c (i 2)))
  exact (congrArg (fun s => outDividedLast s (vCol V (i 0) (i 2))) hs).trans h2

end Cert.Attn

end
-- ==== Proof.KernelBlock.lean ====
/-
  One grid point of the kernel, read entry by entry on the extended reals.

  The body loads a block of 512 query rows, the 1024 key rows and value rows of the batch, and the 512 × 1024 block of
  the mask (as 32-bit words). Entry `(r, c)` of its masked score matrix is the inner product of the scaled query row
  `r` with key row `c`, or `-∞` where the mask word is not zero; the exponentials of the scores shifted by the row
  maximum are normalised by their row sum for the attention block, and multiplied into the value rows, then divided by
  the same row sum, for the output block. Each block written back is therefore a row-wise function of the loaded blocks.
-/
import proofs.«155958_j65343632441709_2_alg».proof.Proof.Gen.KernelIdeal.Value
import proofs.«155958_j65343632441709_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Attn

/-- The pattern of `-∞`. -/
theorem ofBits_neg_inf : Ideal.ofBits .f32 0xFF800000#32 = ⊥ := by simp [Ideal.ofBits, Ideal.ieee]

/-! ### Layout and reduction steps at an index -/

/-- A column of 512 entries spread over `n` lanes reads, at `(r, c)`, its entry `r`. -/
theorem spread_apply {α : Type} (n : ℕ) (v : (⟨1, ![512]⟩ : Shape).Idx → α)
    (hc : (⟨1, ![512]⟩ : Shape).ShapeCasts ⟨2, ![512, 1]⟩) (hb : (⟨2, ![512, 1]⟩ : Shape).Broadcasts ⟨2, ![512, n]⟩)
    (r : Fin 512) (c : Fin n) :
    broadcastTo ⟨2, ![512, n]⟩ (shapeCast ⟨2, ![512, 1]⟩ v hc) hb (ix2 r c) = v (ix1 r) := by
  refine (broadcastTo_apply _ hb (ix2 r c) (ix2 r (0 : Fin 1)) (fun a => match a with
    | ⟨0, _⟩ => by show r.val = if (512 : ℕ) = 1 then 0 else r.val; rw [if_neg (by decide)]
    | ⟨1, _⟩ => by show 0 = if (1 : ℕ) = 1 then 0 else c.val; rw [if_pos rfl])).trans ?_
  exact shapeCast_apply v hc _ (ix1 r) (by
    rw [Shape.rowMajor_val_one, Shape.rowMajor_val_two]; show r.val = r.val * 1 + 0; omega)

/-- The lane maximum of a 512 × 1024 matrix at row `r`: the fold of `max` over the row, from `-∞`. -/
theorem rowmax_apply (X : FVec Ideal S512x1024 .f32) (hφ : FKind.Formats .f32)
    (hacc : (0xFF800000#32 : BitVec 32) = FKind.maximumf.neutral .f32 hφ) (r : Fin 512) :
    multiReduction .maximumf [1] S512 X 0xFF800000#32 reduces_S512x1024_S512 hφ hacc (ix1 r)
      = (Finset.univ : Finset (Fin 1024)).fold max ⊥ (fun c => X (ix2 r c)) := by
  refine (Ideal.multiReduction_maximumf_single X 0xFF800000#32 reduces_S512x1024_S512 hφ hacc (ix1 r)).trans ?_
  show (Finset.univ : Finset (Fin 1024)).fold max (Ideal.ofBits .f32 0xFF800000#32) _ = _
  rw [ofBits_neg_inf]
  refine congrArg (Finset.fold max ⊥ · Finset.univ) (funext fun c => ?_)
  exact congrArg X (funext fun a => Fin.ext (by match a with | ⟨0, _⟩ => rfl | ⟨1, _⟩ => rfl))

/-- The lane sum of a 512 × 1024 matrix at row `r`. -/
theorem rowsum_apply (X : FVec Ideal S512x1024 .f32) (hφ : FKind.Formats .f32)
    (hacc : (0x00000000#32 : BitVec 32) = FKind.add.neutral .f32 hφ) (r : Fin 512) :
    multiReduction .add [1] S512 X 0x00000000#32 reduces_S512x1024_S512 hφ hacc (ix1 r)
      = ∑ c : Fin 1024, X (ix2 r c) := by
  refine (Ideal.multiReduction_add_single X 0x00000000#32 reduces_S512x1024_S512 hφ hacc (ix1 r)).trans ?_
  refine Finset.sum_congr rfl fun c _ => ?_
  exact congrArg X (funext fun a => Fin.ext (by match a with | ⟨0, _⟩ => rfl | ⟨1, _⟩ => rfl))

/-! ### The two matrix products at an index -/

/-- Queries times transposed keys, into a zero accumulator: entry `(r, c)` is the sum over the 64 features. -/
theorem qk_apply (A : FVec Ideal S512x64 .bf16) (B : FVec Ideal S64x1024 .bf16) (r : Fin 512) (c : Fin 1024) :
    matmul dot_S512x64_S64x1024_S512x1024_1_0_0_1_n_n none A B (constant S512x1024 .f32 0x00000000#32) (ix2 r c)
      = ∑ d : Fin 64, A (ix2 r d) * B (ix2 d c) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 r c) ((contrEquiv1 dot_S512x64_S64x1024_S512x1024_1_0_0_1_n_n 64 rfl rfl).symm k) = ix2 r k :=
    funext fun a => Fin.ext (by
      match a with
      | ⟨0, _⟩ =>
        show (dot_S512x64_S64x1024_S512x1024_1_0_0_1_n_n.lhsIdx (ix2 r c) _ 0).val = r.val
        unfold DotDims.lhsIdx
        rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
        rfl
      | ⟨1, _⟩ => exact (dot_S512x64_S64x1024_S512x1024_1_0_0_1_n_n.lhsIdx_val_of_single rfl (ix2 r c) _).trans hk)
  have er : dot_S512x64_S64x1024_S512x1024_1_0_0_1_n_n.rhsIdx (ix2 r c) ((contrEquiv1 dot_S512x64_S64x1024_S512x1024_1_0_0_1_n_n 64 rfl rfl).symm k) = ix2 k c :=
    funext fun a => Fin.ext (by
      match a with
      | ⟨0, _⟩ => exact (dot_S512x64_S64x1024_S512x1024_1_0_0_1_n_n.rhsIdx_val_of_single rfl (ix2 r c) _).trans hk
      | ⟨1, _⟩ =>
        show (dot_S512x64_S64x1024_S512x1024_1_0_0_1_n_n.rhsIdx (ix2 r c) _ 1).val = c.val
        unfold DotDims.rhsIdx
        rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
        rfl)
  rw [el, er]

/-- Weights times values, into a zero accumulator: entry `(r, d)` is the sum over the 1024 keys. -/
theorem pv_apply (A : FVec Ideal S512x1024 .bf16) (B : FVec Ideal S1024x64 .bf16) (r : Fin 512) (d : Fin 64) :
    matmul dot_S512x1024_S1024x64_S512x64_1_0_0_1_n_n none A B (constant S512x64 .f32 0x00000000#32) (ix2 r d)
      = ∑ c : Fin 1024, A (ix2 r c) * B (ix2 c d) := by
  simp only [matmul]
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 r d) ((contrEquiv1 dot_S512x1024_S1024x64_S512x64_1_0_0_1_n_n 1024 rfl rfl).symm k) = ix2 r k :=
    funext fun a => Fin.ext (by
      match a with
      | ⟨0, _⟩ =>
        show (dot_S512x1024_S1024x64_S512x64_1_0_0_1_n_n.lhsIdx (ix2 r d) _ 0).val = r.val
        unfold DotDims.lhsIdx
        rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
        rfl
      | ⟨1, _⟩ => exact (dot_S512x1024_S1024x64_S512x64_1_0_0_1_n_n.lhsIdx_val_of_single rfl (ix2 r d) _).trans hk)
  have er : dot_S512x1024_S1024x64_S512x64_1_0_0_1_n_n.rhsIdx (ix2 r d) ((contrEquiv1 dot_S512x1024_S1024x64_S512x64_1_0_0_1_n_n 1024 rfl rfl).symm k) = ix2 k d :=
    funext fun a => Fin.ext (by
      match a with
      | ⟨0, _⟩ => exact (dot_S512x1024_S1024x64_S512x64_1_0_0_1_n_n.rhsIdx_val_of_single rfl (ix2 r d) _).trans hk
      | ⟨1, _⟩ =>
        show (dot_S512x1024_S1024x64_S512x64_1_0_0_1_n_n.rhsIdx (ix2 r d) _ 1).val = d.val
        unfold DotDims.rhsIdx
        rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
        rfl)
  rw [el, er]

/-! ### The loaded blocks, row by row -/

variable (P0 : Vec Ideal S1x512x64 .f32) (P1 : Vec Ideal S1x1024x64 .f32) (P2 : Vec Ideal S1x1024x64 .f32)
  (P3 : Vec Ideal S1x512x1024 .i32)

/-- Query row `r` of the loaded query block. -/
def bq (r : Fin 512) : Fin 64 → EReal := fun d => P0 (ix3 (0 : Fin 1) r d)
/-- The loaded key rows. -/
def bk : Fin 1024 → Fin 64 → EReal := fun c d => P1 (ix3 (0 : Fin 1) c d)
/-- Row `r` of the loaded mask block. -/
def bm (r : Fin 512) : Fin 1024 → BitVec 32 := fun c => P3 (ix3 (0 : Fin 1) r c)
/-- Column `d` of the loaded value rows. -/
def bv (d : Fin 64) : Fin 1024 → EReal := fun c => P2 (ix3 (0 : Fin 1) c d)

/-- The block's scores of row `r`. -/
def bs (r : Fin 512) : Fin 1024 → EReal := scoreScaledQuery (bq P0 r) (bk P1) (bm P3 r)

/-- The body's masked score matrix: the product of the scaled queries with the transposed keys, `-∞` where the mask
    word is not zero. -/
def masked : FVec Ideal S512x1024 .f32 :=
  select (cmpi .ne (shapeCast S512x1024 P3 shapeCasts_S1x512x1024_S512x1024) (constantI S512x1024 32 0#32))
    (broadcast S512x1024 (Scalar.ofBits .f32 0xFF800000#32))
    (matmul dot_S512x64_S64x1024_S512x1024_1_0_0_1_n_n none
      (truncf .bf16 (mulf (shapeCast S512x64 P0 shapeCasts_S1x512x64_S512x64) (broadcast S512x64 (Scalar.ofBits .f32 0x3E000000#32))) bitsLt_bf16_f32)
      (transpose S64x1024 [1, 0] (truncf .bf16 (shapeCast S1024x64 P1 shapeCasts_S1x1024x64_S1024x64) bitsLt_bf16_f32) transposes_S1024x64_p1_0_S64x1024)
      (constant S512x1024 .f32 0x00000000#32))

/-- Entry `(r, c)` of the masked score matrix is the score of key `c` for query row `r`. -/
theorem masked_apply (r : Fin 512) (c : Fin 1024) : masked P0 P1 P3 (ix2 r c) = bs P0 P1 P3 r c := by
  unfold masked bs scoreScaledQuery
  show Scalar.select (IntOp.cmpi .ne (shapeCast S512x1024 P3 shapeCasts_S1x512x1024_S512x1024 (ix2 r c)) 0#32) (Ideal.ofBits .f32 0xFF800000#32) _ = _
  rw [qk_apply, shapeCast_1ab_ab_apply P3 shapeCasts_S1x512x1024_S512x1024 r c]
  refine congrArg (Scalar.select _ _) (Finset.sum_congr rfl fun d _ => ?_)
  rw [transpose_ix2_apply _ transposes_S1024x64_p1_0_S64x1024 d c]
  show (shapeCast S512x64 P0 shapeCasts_S1x512x64_S512x64 (ix2 r d) * Ideal.ofBits .f32 0x3E000000#32)
      * shapeCast S1024x64 P1 shapeCasts_S1x1024x64_S1024x64 (ix2 c d) = _
  rw [shapeCast_1ab_ab_apply P0 shapeCasts_S1x512x64_S512x64 r d, shapeCast_1ab_ab_apply P1 shapeCasts_S1x1024x64_S1024x64 c d]
  rfl

/-- The exponentials the body computes, as the tree of vector operations over the masked scores. -/
theorem pay2_eq : k0_pay2 P0 P1 P3 = exp (subf (masked P0 P1 P3) (broadcastTo S512x1024 (shapeCast S512x1
    (multiReduction .maximumf [1] S512 (masked P0 P1 P3) 0xFF800000#32 reduces_S512x1024_S512 (.inl rfl) rfl)
    shapeCasts_S512_S512x1) broadcasts_S512x1_S512x1024)) := rfl

/-- Entry `(r, c)` of the exponentials: `exp` of the score less the row's maximum. -/
theorem pay2_apply (r : Fin 512) (c : Fin 1024) : k0_pay2 P0 P1 P3 (ix2 r c) = rowExp (bs P0 P1 P3 r) c := by
  rw [pay2_eq]
  show Ideal.exp (masked P0 P1 P3 (ix2 r c) - broadcastTo S512x1024 (shapeCast S512x1 _ shapeCasts_S512_S512x1) broadcasts_S512x1_S512x1024 (ix2 r c)) = _
  rw [spread_apply 1024 _ shapeCasts_S512_S512x1 broadcasts_S512x1_S512x1024 r c]
  refine (congrArg (fun z => Ideal.exp (masked P0 P1 P3 (ix2 r c) - z)) (rowmax_apply (masked P0 P1 P3) (.inl rfl) rfl r)).trans ?_
  rw [masked_apply]
  unfold rowExp rowMax
  refine congrArg (fun z => Ideal.exp (bs P0 P1 P3 r c - z)) ?_
  exact congrArg (Finset.fold max ⊥ · Finset.univ) (funext fun c' => masked_apply P0 P1 P3 r c')

/-- The attention block: entry `(r, c)` is the softmax weight of key `c` in row `r`. -/
theorem attnBlock_apply (u : Fin 1) (r : Fin 512) (c : Fin 1024) :
    Value.E5 P0 P1 P3 (ix3 u r c) = soft (bs P0 P1 P3 r) c := by
  have e0 : Value.ix5_0 (ix3 u r c) = ix2 r c := funext fun a => Fin.ext (by match a with | ⟨0, _⟩ => rfl | ⟨1, _⟩ => rfl)
  have e1 : Value.ix5_1 (ix3 u r c) = ix1 r := funext fun a => Fin.ext (by match a with | ⟨0, _⟩ => rfl)
  show Ideal.div (k0_pay2 P0 P1 P3 (Value.ix5_0 (ix3 u r c))) (multiReduction .add [1] S512 (k0_pay2 P0 P1 P3) 0x00000000#32 reduces_S512x1024_S512 (.inl rfl) rfl (Value.ix5_1 (ix3 u r c))) = _
  rw [e0, e1]
  refine (congrArg (Ideal.div (k0_pay2 P0 P1 P3 (ix2 r c))) (rowsum_apply (k0_pay2 P0 P1 P3) (.inl rfl) rfl r)).trans ?_
  rw [pay2_apply]
  unfold soft rowSum
  exact congrArg (Ideal.div _) (Finset.sum_congr rfl fun c' _ => pay2_apply P0 P1 P3 r c')

/-- The output's payload, as the tree of vector operations over the exponentials. -/
theorem pay5_eq : k0_pay5 P0 P1 P2 P3 = divf (matmul dot_S512x1024_S1024x64_S512x64_1_0_0_1_n_n none
      (truncf .bf16 (k0_pay2 P0 P1 P3) bitsLt_bf16_f32)
      (truncf .bf16 (shapeCast S1024x64 P2 shapeCasts_S1x1024x64_S1024x64) bitsLt_bf16_f32)
      (constant S512x64 .f32 0x00000000#32))
    (broadcastTo S512x64 (shapeCast S512x1 (multiReduction .add [1] S512 (k0_pay2 P0 P1 P3) 0x00000000#32 reduces_S512x1024_S512 (.inl rfl) rfl) shapeCasts_S512_S512x1) broadcasts_S512x1_S512x64) := rfl

/-- The output block: entry `(r, d)` is the exponential-weighted sum of column `d` of the values, divided by the row
    sum of the exponentials. -/
theorem outBlock_apply (u : Fin 1) (r : Fin 512) (d : Fin 64) :
    Value.E4 P0 P1 P2 P3 (ix3 u r d) = outDividedLast (bs P0 P1 P3 r) (bv P2 d) := by
  have e0 : Value.ix4_0 (ix3 u r d) = ix2 r d := funext fun a => Fin.ext (by match a with | ⟨0, _⟩ => rfl | ⟨1, _⟩ => rfl)
  show k0_pay5 P0 P1 P2 P3 (Value.ix4_0 (ix3 u r d)) = _
  rw [e0, pay5_eq, divf_apply, pv_apply, spread_apply 64 _ shapeCasts_S512_S512x1 broadcasts_S512x1_S512x64 r d]
  refine (congrArg (Ideal.div _) (rowsum_apply (k0_pay2 P0 P1 P3) (.inl rfl) rfl r)).trans ?_
  unfold outDividedLast rowSum
  refine congrArg₂ Ideal.div (Finset.sum_congr rfl fun c _ => ?_) (Finset.sum_congr rfl fun c _ => pay2_apply P0 P1 P3 r c)
  show k0_pay2 P0 P1 P3 (ix2 r c) * shapeCast S1024x64 P2 shapeCasts_S1x1024x64_S1024x64 (ix2 c d) = _
  rw [pay2_apply, shapeCast_1ab_ab_apply P2 shapeCasts_S1x1024x64_S1024x64 c d]
  rfl

end Cert.KernelIdeal.Block

end
-- ==== Proof.KernelAttn.lean ====
import proofs.«155958_j65343632441709_2_alg».proof.Proof.KernelBlock

noncomputable section

namespace Cert.KernelIdeal.AttnArray

open Cert.KernelIdeal Cert.KernelIdeal.Gen Cert.Attn Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! From the blocks the grid points write back to the whole array of attention weights: grid point `t` has batch
    `bat t` and writes the 512 query rows `row t r`; its loaded blocks are those rows of the arrays, so what it writes
    back is that block of the row-by-row function `attnKer`, and the 128 blocks tile the array. -/

/-- The mask the body reads is the given one-bit mask widened to 32-bit words. -/
theorem mask_words (c : Dev nD) : (V m c main_v0 : S64x1024x1024.Idx → BitVec 32)
    = fun i => ((m ((c : Thread nD τ).loc main_arg3) : S64x1024x1024.Idx → BitVec 1) i).setWidth 32 := by
  dsimp only [Gen.V, Gen.hostOps0]
  after_results
  rfl

theorem zero_offsets : (![0, 0, 0] : Fin 3 → Nat) = fun _ => 0 := funext fun a => by fin_cases a <;> rfl

/-- The block indices of the windows this output reads, against the output's own, decided over the 128 grid points:
    queries and mask move with the output; keys follow the batch only; the output's block index is `(b, qi, 0)` with
    `b ≤ 63`, `qi ≤ 1`. -/
theorem idx_rel : ∀ t : Fin cfg0.N,
    win0_0.index t (0 : Fin 3) = win0_5.index t (0 : Fin 3)
    ∧ win0_0.index t (1 : Fin 3) = win0_5.index t (1 : Fin 3)
    ∧ win0_0.index t (2 : Fin 3) = 0
    ∧ win0_1.index t (0 : Fin 3) = win0_5.index t (0 : Fin 3)
    ∧ win0_1.index t (1 : Fin 3) = 0
    ∧ win0_1.index t (2 : Fin 3) = 0
    ∧ win0_3.index t (0 : Fin 3) = win0_5.index t (0 : Fin 3)
    ∧ win0_3.index t (1 : Fin 3) = win0_5.index t (1 : Fin 3)
    ∧ win0_3.index t (2 : Fin 3) = 0
    ∧ win0_5.index t (0 : Fin 3) ≤ 63
    ∧ win0_5.index t (1 : Fin 3) ≤ 1
    ∧ win0_5.index t (2 : Fin 3) = 0 :=
  (by decide +kernel : ∀ t : Fin grid0.N, _)

/-- Every block index `(b, qi, 0)` is some grid point's. -/
theorem idx_onto : ∀ (q0 : Fin 64) (q1 : Fin 2), ∃ t : Fin cfg0.N, win0_5.index t = ![q0.val, q1.val, 0] :=
  (by decide +kernel : ∀ (q0 : Fin 64) (q1 : Fin 2), ∃ t : Fin grid0.N, win0_5.index t = ![q0.val, q1.val, 0])

/-- The batch of grid point `t`. -/
def bat (t : Fin cfg0.N) : Fin 64 := ⟨win0_5.index t (0 : Fin 3), by have h := (idx_rel t).2.2.2.2.2.2.2.2.2.1; omega⟩
/-- The query row of the array that is row `r` of grid point `t`'s block. -/
def row (t : Fin cfg0.N) (r : Fin 512) : Fin 1024 :=
  ⟨win0_5.index t (1 : Fin 3) * 512 + r.val, by have h := (idx_rel t).2.2.2.2.2.2.2.2.2.2.1; have hr := r.isLt; omega⟩

/-- Entry `(u, r, k)` of the output's block at `t` is entry `(bat t, row t r, k)` of the array. -/
theorem emb_attn (t : Fin cfg0.N) (u : Fin 1) (r : Fin 512) (k : Fin 1024) :
    ((cfg0.win 5).blk t).view.emb (ix3 u r k) = ix3 (bat t) (row t r) k := by
  obtain ⟨e0, e1, e2, e3, e4, e5, e6, e7, e8, e9, e10, e11⟩ := idx_rel t
  funext a; apply Fin.ext
  match a with
  | ⟨0, _⟩ => show win0_5.index t (0 : Fin 3) * 1 + 1 * u.val = win0_5.index t (0 : Fin 3); have hu := u.isLt; omega
  | ⟨1, _⟩ => show win0_5.index t (1 : Fin 3) * 512 + 1 * r.val = win0_5.index t (1 : Fin 3) * 512 + r.val; omega
  | ⟨2, _⟩ => show win0_5.index t (2 : Fin 3) * 1024 + 1 * k.val = k.val; omega

/-- The loaded query block is rows `row t ·` of batch `bat t` of the queries. -/
theorem read_q (c : Dev nD) (t : Fin cfg0.N) (u : Fin 1) (r : Fin 512) (d : Fin 64) :
    iblk m c 0 t (ix3 u r d) = V m c main_arg0 (ix3 (bat t) (row t r) d) := by
  obtain ⟨e0, e1, e2, e3, e4, e5, e6, e7, e8, e9, e10, e11⟩ := idx_rel t
  show V m c main_arg0 (((cfg0.win 0).blk t).view.emb (ix3 u r d)) = V m c main_arg0 _
  refine congrArg (V m c main_arg0) (funext fun a => Fin.ext ?_)
  match a with
  | ⟨0, _⟩ => show win0_0.index t (0 : Fin 3) * 1 + 1 * u.val = win0_5.index t (0 : Fin 3); have hu := u.isLt; omega
  | ⟨1, _⟩ => show win0_0.index t (1 : Fin 3) * 512 + 1 * r.val = win0_5.index t (1 : Fin 3) * 512 + r.val; omega
  | ⟨2, _⟩ => show win0_0.index t (2 : Fin 3) * 64 + 1 * d.val = d.val; omega

/-- The loaded key block is batch `bat t` of the keys. -/
theorem read_k (c : Dev nD) (t : Fin cfg0.N) (u : Fin 1) (k : Fin 1024) (d : Fin 64) :
    iblk m c 1 t (ix3 u k d) = V m c main_arg1 (ix3 (bat t) k d) := by
  obtain ⟨e0, e1, e2, e3, e4, e5, e6, e7, e8, e9, e10, e11⟩ := idx_rel t
  show V m c main_arg1 (((cfg0.win 1).blk t).view.emb (ix3 u k d)) = V m c main_arg1 _
  refine congrArg (V m c main_arg1) (funext fun a => Fin.ext ?_)
  match a with
  | ⟨0, _⟩ => show win0_1.index t (0 : Fin 3) * 1 + 1 * u.val = win0_5.index t (0 : Fin 3); have hu := u.isLt; omega
  | ⟨1, _⟩ => show win0_1.index t (1 : Fin 3) * 1024 + 1 * k.val = k.val; omega
  | ⟨2, _⟩ => show win0_1.index t (2 : Fin 3) * 64 + 1 * d.val = d.val; omega

/-- The loaded mask block is rows `row t ·` of batch `bat t` of the mask words. -/
theorem read_m (c : Dev nD) (t : Fin cfg0.N) (u : Fin 1) (r : Fin 512) (k : Fin 1024) :
    iblk m c 3 t (ix3 u r k) = V m c main_v0 (ix3 (bat t) (row t r) k) := by
  obtain ⟨e0, e1, e2, e3, e4, e5, e6, e7, e8, e9, e10, e11⟩ := idx_rel t
  show V m c main_v0 (((cfg0.win 3).blk t).view.emb (ix3 u r k)) = V m c main_v0 _
  refine congrArg (V m c main_v0) (funext fun a => Fin.ext ?_)
  match a with
  | ⟨0, _⟩ => show win0_3.index t (0 : Fin 3) * 1 + 1 * u.val = win0_5.index t (0 : Fin 3); have hu := u.isLt; omega
  | ⟨1, _⟩ => show win0_3.index t (1 : Fin 3) * 512 + 1 * r.val = win0_5.index t (1 : Fin 3) * 512 + r.val; omega
  | ⟨2, _⟩ => show win0_3.index t (2 : Fin 3) * 1024 + 1 * k.val = k.val; omega

/-- The block's score row `r` is the array's score row `(bat t, row t r)`. -/
theorem scores_eq (c : Dev nD) (t : Fin cfg0.N) (r : Fin 512) :
    Block.bs (iblk m c 0 t) (iblk m c 1 t) (iblk m c 3 t) r
      = scoreScaledQuery (qRow (V m c main_arg0) (bat t) (row t r)) (kRows (V m c main_arg1) (bat t)) (mRow (V m c main_v0) (bat t) (row t r)) := by
  have hq : Block.bq (iblk m c 0 t) r = qRow (V m c main_arg0) (bat t) (row t r) := funext fun d => read_q m c t 0 r d
  have hk : Block.bk (iblk m c 1 t) = kRows (V m c main_arg1) (bat t) := funext fun k => funext fun d => read_k m c t 0 k d
  have hm : Block.bm (iblk m c 3 t) r = mRow (V m c main_v0) (bat t) (row t r) := funext fun k => read_m m c t 0 r k
  unfold Block.bs
  rw [hq, hk, hm]

/-- What the body leaves in the output's buffer, entry by entry: the loads are the whole blocks, and the one store
    covers the buffer. -/
theorem out5_apply (x0 : Vec Ideal S1x512x64 .f32) (x1 x2 : Vec Ideal S1x1024x64 .f32) (x3 : Vec Ideal S1x512x1024 .i32)
    (y : S1x512x1024.Idx) : out0_5 x0 x1 x2 x3 y = Value.E5 x0 x1 x3 y := by
  unfold out0_5
  simp only [View.ld_unit_zero (S := S1x512x64) zero_offsets, View.ld_unit_zero (S := S1x1024x64) zero_offsets, View.ld_unit_zero (S := S1x512x1024) zero_offsets]
  exact Value.canon5_eq x0 x1 x3 y

/-- What grid point `t` writes back is block `t` of `attnKer` of the arrays as the region finds them. -/
theorem flushed5_eq (c : Dev nD) (t : Fin cfg0.N) :
    (dats m 0 c).flushed 5 t = ((cfg0.win 5).blk t).view.read (Elt Ideal) (attnKer (V m c main_arg0) (V m c main_arg1) (V m c main_v0)) := by
  rw [Value.flushed5]
  funext j
  show out0_5 (iblk m c 0 t) (iblk m c 1 t) (iblk m c 2 t) (iblk m c 3 t) j
    = attnKer (V m c main_arg0) (V m c main_arg1) (V m c main_v0) (((cfg0.win 5).blk t).view.emb j)
  refine (out5_apply (iblk m c 0 t) (iblk m c 1 t) (iblk m c 2 t) (iblk m c 3 t) j).trans ?_
  obtain ⟨u, r, k, rfl⟩ : ∃ (u : Fin 1) (r : Fin 512) (k : Fin 1024), j = ix3 u r k := ⟨j 0, j 1, j 2, eq_ix3 j⟩
  refine (Block.attnBlock_apply (iblk m c 0 t) (iblk m c 1 t) (iblk m c 3 t) u r k).trans ?_
  rw [emb_attn t u r k]
  exact congrArg (fun s => soft s k) (scores_eq m c t r)

/-- An index of the array is in grid point `t`'s block iff each coordinate is in the block's range on its axis. -/
theorem mem_blk5 (t : Fin cfg0.N) (i : S64x1024x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v1_1).slice (win0_5.rect t)).set ↔ _
  rw [View.set_slice_whole, Rect.mem_set_unit]
  exact Iff.rfl

/-- Every index of the array is in some grid point's block: batch `i 0`, half `i 1 / 512`. -/
theorem covered5 (i : S64x1024x1024.Idx) :
    ∃ t : Fin cfg0.N, (cfg0.win 5).flush t = true ∧ i ∈ ((cfg0.win 5).blk t).view.set := by
  have hi0 : (i 0).val < 64 := (i 0).isLt
  have hi1 : (i 1).val < 1024 := (i 1).isLt
  have hi2 : (i 2).val < 1024 := (i 2).isLt
  obtain ⟨t, ht⟩ := idx_onto ⟨(i 0).val, by omega⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- The array of attention weights after the run is `attnKer` of the arguments, the mask widened to words. -/
theorem final5 (c : Dev nD) : (dats m 0 c).arrAt 5 cfg0.N
    = attnKer (m ((c : Thread nD τ).loc main_arg0)) (m ((c : Thread nD τ).loc main_arg1))
        (fun i => (m ((c : Thread nD τ).loc main_arg3) i).setWidth 32) := by
  rw [(dats m 0 c).arrAt_eq_of_cover 5 (attnKer (V m c main_arg0) (V m c main_arg1) (V m c main_v0)) (fun t _ => flushed5_eq m c t) covered5]
  rw [V_main_arg0 m c, V_main_arg1 m c, mask_words m c]
  rfl

end Cert.KernelIdeal.AttnArray

end
-- ==== Proof.KernelOut.lean ====
/-
  The output array, from its blocks. Grid point `t` of the 64 × 2 grid has batch `b` and half `qi`; it writes rows
  `512·qi … 512·qi + 511` of batch `b` of the output, from the same rows of the queries and of the mask and from all 1024
  key rows and value rows of the batch. Entry `(r, d)` of the block it writes is the output entry of the row's scores and
  column `d` of the values; the rows of the loaded blocks are the rows of the arrays, so the block is the block of one
  function of the arrays, `outKer`. The 128 blocks tile the array, which therefore ends holding that function.
-/
import proofs.«155958_j65343632441709_2_alg».proof.Proof.KernelBlock
import Idealize.ShloMosaic.Lib.Pipeline.Value
import Idealize.ShloMosaic.Lib.Tactic

noncomputable section

namespace Cert.KernelIdeal.OutArray

open Cert.KernelIdeal Cert.KernelIdeal.Gen Cert.Attn Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ)

/-- The zero offsets of a rectangle that is its whole block. -/
theorem zero_offsets : (![0, 0, 0] : Fin 3 → Nat) = fun _ => 0 := funext fun a => by fin_cases a <;> rfl

/-- The mask the region reads is the argument's bits widened to 32-bit words. -/
theorem mask_words (c : Dev nD) : (V m c main_v0 : S64x1024x1024.Idx → BitVec 32)
    = fun i => ((m ((c : Thread nD τ).loc main_arg3) : S64x1024x1024.Idx → BitVec 1) i).setWidth 32 := by
  dsimp only [Gen.V, Gen.hostOps0]
  after_results
  rfl

/-- The index maps over the grid: the query block and the mask block move with the output block; the key and value
    blocks follow its batch and stay at row block 0; the output's batch is below 64, its half below 2, its lane block 0. -/
theorem idx_rel : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (0 : Fin 3) ≤ 63 ∧ win0_4.index t (1 : Fin 3) ≤ 1 ∧ win0_4.index t (2 : Fin 3) = 0 :=
  (by decide +kernel : ∀ t : Fin grid0.N, _)

/-- The batch of grid point `t`. -/
def batch (t : Fin cfg0.N) : Fin 64 := ⟨win0_4.index t (0 : Fin 3), by have := (idx_rel t).2.2.2.2.2.2.2.2.2.2.2.2.1; omega⟩

/-- The array row of row `r` of grid point `t`'s block: `512·qi + r`. -/
def row (t : Fin cfg0.N) (r : Fin 512) : Fin 1024 :=
  ⟨win0_4.index t (1 : Fin 3) * 512 + r.val, by have := (idx_rel t).2.2.2.2.2.2.2.2.2.2.2.2.2.1; have := r.isLt; omega⟩

/-! ### The loaded blocks are rows of the arrays -/

/-- The query block of grid point `t`: its row `r` is row `row t r` of batch `batch t` of the queries. -/
theorem qBlock_apply (c : Dev nD) (t : Fin cfg0.N) (u : Fin 1) (r : Fin 512) (d : Fin 64) :
    (iblk m c 0 t : Vec Ideal S1x512x64 .f32) (ix3 u r d)
      = (V m c main_arg0 : S64x1024x64.Idx → EReal) (ix3 (batch t) (row t r) d) := by
  obtain ⟨e0, e1, e2, -⟩ := idx_rel t
  have hu : u.val = 0 := by have := u.isLt; omega
  show (V m c main_arg0 : S64x1024x64.Idx → EReal) (((cfg0.win 0).blk t).view.emb (ix3 u r d)) = _
  refine congrArg (V m c main_arg0 : S64x1024x64.Idx → EReal) (funext fun a => Fin.ext ?_)
  match a with
  | ⟨0, _⟩ => show win0_0.index t (0 : Fin 3) * 1 + 1 * u.val = win0_4.index t (0 : Fin 3); omega
  | ⟨1, _⟩ => show win0_0.index t (1 : Fin 3) * 512 + 1 * r.val = win0_4.index t (1 : Fin 3) * 512 + r.val; omega
  | ⟨2, _⟩ => show win0_0.index t (2 : Fin 3) * 64 + 1 * d.val = d.val; omega

/-- The key block of grid point `t`: the 1024 key rows of batch `batch t`. -/
theorem kBlock_apply (c : Dev nD) (t : Fin cfg0.N) (u : Fin 1) (k : Fin 1024) (d : Fin 64) :
    (iblk m c 1 t : Vec Ideal S1x1024x64 .f32) (ix3 u k d)
      = (V m c main_arg1 : S64x1024x64.Idx → EReal) (ix3 (batch t) k d) := by
  obtain ⟨-, -, -, e0, e1, e2, -⟩ := idx_rel t
  have hu : u.val = 0 := by have := u.isLt; omega
  show (V m c main_arg1 : S64x1024x64.Idx → EReal) (((cfg0.win 1).blk t).view.emb (ix3 u k d)) = _
  refine congrArg (V m c main_arg1 : S64x1024x64.Idx → EReal) (funext fun a => Fin.ext ?_)
  match a with
  | ⟨0, _⟩ => show win0_1.index t (0 : Fin 3) * 1 + 1 * u.val = win0_4.index t (0 : Fin 3); omega
  | ⟨1, _⟩ => show win0_1.index t (1 : Fin 3) * 1024 + 1 * k.val = k.val; omega
  | ⟨2, _⟩ => show win0_1.index t (2 : Fin 3) * 64 + 1 * d.val = d.val; omega

/-- The value block of grid point `t`: the 1024 value rows of batch `batch t`. -/
theorem vBlock_apply (c : Dev nD) (t : Fin cfg0.N) (u : Fin 1) (k : Fin 1024) (d : Fin 64) :
    (iblk m c 2 t : Vec Ideal S1x1024x64 .f32) (ix3 u k d)
      = (V m c main_arg2 : S64x1024x64.Idx → EReal) (ix3 (batch t) k d) := by
  obtain ⟨-, -, -, -, -, -, e0, e1, e2, -⟩ := idx_rel t
  have hu : u.val = 0 := by have := u.isLt; omega
  show (V m c main_arg2 : S64x1024x64.Idx → EReal) (((cfg0.win 2).blk t).view.emb (ix3 u k d)) = _
  refine congrArg (V m c main_arg2 : S64x1024x64.Idx → EReal) (funext fun a => Fin.ext ?_)
  match a with
  | ⟨0, _⟩ => show win0_2.index t (0 : Fin 3) * 1 + 1 * u.val = win0_4.index t (0 : Fin 3); omega
  | ⟨1, _⟩ => show win0_2.index t (1 : Fin 3) * 1024 + 1 * k.val = k.val; omega
  | ⟨2, _⟩ => show win0_2.index t (2 : Fin 3) * 64 + 1 * d.val = d.val; omega

/-- The mask block of grid point `t`: its row `r` is row `row t r` of batch `batch t` of the mask words. -/
theorem mBlock_apply (c : Dev nD) (t : Fin cfg0.N) (u : Fin 1) (r : Fin 512) (k : Fin 1024) :
    (iblk m c 3 t : Vec Ideal S1x512x1024 .i32) (ix3 u r k)
      = (V m c main_v0 : S64x1024x1024.Idx → BitVec 32) (ix3 (batch t) (row t r) k) := by
  obtain ⟨-, -, -, -, -, -, -, -, -, e0, e1, e2, -⟩ := idx_rel t
  have hu : u.val = 0 := by have := u.isLt; omega
  show (V m c main_v0 : S64x1024x1024.Idx → BitVec 32) (((cfg0.win 3).blk t).view.emb (ix3 u r k)) = _
  refine congrArg (V m c main_v0 : S64x1024x1024.Idx → BitVec 32) (funext fun a => Fin.ext ?_)
  match a with
  | ⟨0, _⟩ => show win0_3.index t (0 : Fin 3) * 1 + 1 * u.val = win0_4.index t (0 : Fin 3); omega
  | ⟨1, _⟩ => show win0_3.index t (1 : Fin 3) * 512 + 1 * r.val = win0_4.index t (1 : Fin 3) * 512 + r.val; omega
  | ⟨2, _⟩ => show win0_3.index t (2 : Fin 3) * 1024 + 1 * k.val = k.val; omega

/-- Entry `(u, r, d)` of grid point `t`'s output block sits at row `row t r` of batch `batch t`, column `d`. -/
theorem outBlock_emb (t : Fin cfg0.N) (u : Fin 1) (r : Fin 512) (d : Fin 64) :
    ((cfg0.win 4).blk t).view.emb (ix3 u r d) = (ix3 (batch t) (row t r) d : S64x1024x64.Idx) := by
  have e2 := (idx_rel t).2.2.2.2.2.2.2.2.2.2.2.2.2.2
  have hu : u.val = 0 := by have := u.isLt; omega
  funext a
  apply Fin.ext
  match a with
  | ⟨0, _⟩ => show win0_4.index t (0 : Fin 3) * 1 + 1 * u.val = win0_4.index t (0 : Fin 3); omega
  | ⟨1, _⟩ => show win0_4.index t (1 : Fin 3) * 512 + 1 * r.val = win0_4.index t (1 : Fin 3) * 512 + r.val; omega
  | ⟨2, _⟩ => show win0_4.index t (2 : Fin 3) * 64 + 1 * d.val = d.val; omega

/-! ### What a grid point writes back -/

/-- The body's one store into the output's buffer leaves, entry by entry, the output block of the loaded blocks. -/
theorem out_eq (P0 : Vec Ideal S1x512x64 .f32) (P1 : Vec Ideal S1x1024x64 .f32) (P2 : Vec Ideal S1x1024x64 .f32)
    (P3 : Vec Ideal S1x512x1024 .i32) : out0_4 P0 P1 P2 P3 = Value.E4 P0 P1 P2 P3 := by
  unfold out0_4
  simp only [View.ld_unit_zero (S := S1x512x64) zero_offsets, View.ld_unit_zero (S := S1x1024x64) zero_offsets,
    View.ld_unit_zero (S := S1x512x1024) zero_offsets]
  exact funext (Value.canon4_eq P0 P1 P2 P3)

/-- Grid point `t` writes back block `t` of `outKer` of the arrays as the region finds them. -/
theorem flushed4_eq (c : Dev nD) (t : Fin cfg0.N) :
    (dats m 0 c).flushed 4 t = ((cfg0.win 4).blk t).view.read (Elt Ideal)
      (outKer (V m c main_arg0) (V m c main_arg1) (V m c main_arg2) (V m c main_v0)) := by
  rw [Value.flushed4]
  funext j
  obtain ⟨u, r, d, rfl⟩ : ∃ (u : Fin 1) (r : Fin 512) (d : Fin 64), j = ix3 u r d := ⟨j 0, j 1, j 2, eq_ix3 j⟩
  show out0_4 (iblk m c 0 t) (iblk m c 1 t) (iblk m c 2 t) (iblk m c 3 t) (ix3 u r d)
    = outKer (V m c main_arg0) (V m c main_arg1) (V m c main_arg2) (V m c main_v0) (((cfg0.win 4).blk t).view.emb (ix3 u r d))
  refine (congrFun (out_eq (iblk m c 0 t) (iblk m c 1 t) (iblk m c 2 t) (iblk m c 3 t)) (ix3 u r d)).trans ?_
  refine (Block.outBlock_apply (iblk m c 0 t) (iblk m c 1 t) (iblk m c 2 t) (iblk m c 3 t) u r d).trans ?_
  rw [outBlock_emb t u r d]
  show outDividedLast (scoreScaledQuery (Block.bq (iblk m c 0 t) r) (Block.bk (iblk m c 1 t)) (Block.bm (iblk m c 3 t) r))
      (Block.bv (iblk m c 2 t) d)
    = outDividedLast (scoreScaledQuery (qRow (V m c main_arg0) (batch t) (row t r)) (kRows (V m c main_arg1) (batch t))
        (mRow (V m c main_v0) (batch t) (row t r))) (vCol (V m c main_arg2) (batch t) d)
  have hq : Block.bq (iblk m c 0 t) r = qRow (V m c main_arg0) (batch t) (row t r) :=
    funext fun d' => qBlock_apply m c t 0 r d'
  have hk : Block.bk (iblk m c 1 t) = kRows (V m c main_arg1) (batch t) :=
    funext fun k => funext fun d' => kBlock_apply m c t 0 k d'
  have hm : Block.bm (iblk m c 3 t) r = mRow (V m c main_v0) (batch t) (row t r) :=
    funext fun k => mBlock_apply m c t 0 r k
  have hv : Block.bv (iblk m c 2 t) d = vCol (V m c main_arg2) (batch t) d :=
    funext fun k => vBlock_apply m c t 0 k d
  rw [hq, hk, hm, hv]

/-! ### The blocks tile the array -/

/-- An index of the array is in grid point `t`'s block iff each coordinate is in the block's range on its axis. -/
theorem mem_blk (t : Fin cfg0.N) (i : S64x1024x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v1_0).slice (win0_4.rect t)).set ↔ _
  rw [View.set_slice_whole, Rect.mem_set_unit]
  exact Iff.rfl

/-- Every (batch, half) is some grid point's. -/
theorem idx_onto : ∀ (q0 : Fin 64) (q1 : Fin 2), ∃ t : Fin cfg0.N, win0_4.index t = ![q0.val, q1.val, 0] :=
  (by decide +kernel : ∀ (q0 : Fin 64) (q1 : Fin 2), ∃ t : Fin grid0.N, win0_4.index t = ![q0.val, q1.val, 0])

/-- Every index of the output is in the block of the grid point of its batch and of the half its row falls in. -/
theorem covered4 (i : S64x1024x64.Idx) :
    ∃ t : Fin cfg0.N, (cfg0.win 4).flush t = true ∧ i ∈ ((cfg0.win 4).blk t).view.set := by
  have hi0 : (i 0).val < 64 := (i 0).isLt
  have hi1 : (i 1).val < 1024 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 64 ≤ (i 2).val ∧ (i 2).val < win0_4.index t (2 : Fin 3) * 64 + 64
    omega

/-! ### The array after the run -/

/-- The output array ends holding `outKer` of the argument arrays, the mask's bits widened to 32-bit words. -/
theorem final4 (c : Dev nD) : (dats m 0 c).arrAt 4 cfg0.N
    = outKer (m ((c : Thread nD τ).loc main_arg0)) (m ((c : Thread nD τ).loc main_arg1)) (m ((c : Thread nD τ).loc main_arg2))
        (fun i => (m ((c : Thread nD τ).loc main_arg3) i).setWidth 32) := by
  have h := (dats m 0 c).arrAt_eq_of_cover 4
    (outKer (V m c main_arg0) (V m c main_arg1) (V m c main_arg2) (V m c main_v0))
    (fun t _ => flushed4_eq m c t) covered4
  rw [h, V_main_arg0 m c, V_main_arg1 m c, V_main_arg2 m c, mask_words m c]
  rfl

end Cert.KernelIdeal.OutArray

end
-- ==== Proof.lean ====
/-
  Masked scaled-dot-product attention (64 batches, 1024 queries and keys, 64 features): the tiled kernel against the
  plain einsum / softmax / einsum reference, on the extended reals.

  Both programs compute, for each batch and query row, the scores `s c = ⟨q, k c⟩ / 8` with `-∞` at the keys the mask
  strikes out, the weights `exp (s c - max s) / Σ exp (s c' - max s)` and the weighted sum of the value rows. The kernel
  scales the query by `1/8` before the inner product where the reference divides the product by `8`: the same real number
  for finite queries and keys. The kernel divides the weighted sum of exponentials by their sum where the reference
  divides each exponential first: the same real number once the sum is a positive real, which holds when the row has an
  unmasked key (then the maximum is real, every exponential is a real in [0, 1], and one of them is positive). A row with
  every key masked is outside the claim: there the reference's softmax is `0/0`.

  The kernel's two result arrays are read block by block from its run (one block of 512 query rows per grid point, each
  a row-wise function of the loaded blocks), the reference's operation by operation from its run; the precondition gives
  the finiteness of the three float arrays and the unmasked key of every row.
-/
import proofs.«155958_j65343632441709_2_alg».proof.Defs
import proofs.«155958_j65343632441709_2_alg».proof.Proof.Gen.Kernel
import proofs.«155958_j65343632441709_2_alg».proof.Proof.Gen.Kernel.Skeleton
import proofs.«155958_j65343632441709_2_alg».proof.Proof.Gen.Kernel.Launch
import proofs.«155958_j65343632441709_2_alg».proof.Proof.Gen.Kernel.Points
import proofs.«155958_j65343632441709_2_alg».proof.Proof.Gen.Kernel.Frame
import proofs.«155958_j65343632441709_2_alg».proof.Proof.Gen.KernelIdeal
import proofs.«155958_j65343632441709_2_alg».proof.Proof.Gen.KernelIdeal.Skeleton
import proofs.«155958_j65343632441709_2_alg».proof.Proof.Gen.KernelIdeal.Launch
import proofs.«155958_j65343632441709_2_alg».proof.Proof.Gen.KernelIdeal.Points
import proofs.«155958_j65343632441709_2_alg».proof.Proof.Gen.KernelIdeal.Frame
import proofs.«155958_j65343632441709_2_alg».proof.Proof.Gen.KernelIdeal.Value
import proofs.«155958_j65343632441709_2_alg».proof.Proof.Gen.ReferenceIdeal
import proofs.«155958_j65343632441709_2_alg».proof.Proof.Gen.ReferenceIdeal.Run
import proofs.«155958_j65343632441709_2_alg».proof.Proof.Gen.ReferenceIdeal.Read
import proofs.«155958_j65343632441709_2_alg».proof.Proof.Gen.Pre_finite_inputs
import proofs.«155958_j65343632441709_2_alg».proof.Proof.Spec
import proofs.«155958_j65343632441709_2_alg».proof.Proof.PreFacts
import proofs.«155958_j65343632441709_2_alg».proof.Proof.RefIsSpec
import proofs.«155958_j65343632441709_2_alg».proof.Proof.Bridge
import proofs.«155958_j65343632441709_2_alg».proof.Proof.KernelAttn
import proofs.«155958_j65343632441709_2_alg».proof.Proof.KernelOut
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- On finite queries, keys and values, with an unmasked key in every row, both programs end with the softmax
    attention weights and the weighted values of the argument arrays: the kernel's arrays are those of `attnKer` /
    `outKer` block by block, the reference's those of `attnRef` / `outRef` operation by operation, and the two pairs
    agree by the two laws on the extended reals (the scale moved across the inner product; the normalisation moved
    across the weighted sum). -/
theorem algebraic : Cert.algebraic_KernelIdeal_ReferenceIdeal := by
  intro m ρ m' ρ' hpre hagree
  refine ⟨fun c => Cert.Attn.outRef (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Attn.attnRef (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Value.run_blocks (F := Ideal) m ρ)
    obtain ⟨hQ, hK, hV, hM⟩ := Cert.Attn.pre_facts _ _ _ _ (hpre c)
    exact ⟨(h c).1.trans ((Cert.KernelIdeal.OutArray.final4 m c).trans (Cert.Attn.outKer_eq_outRef _ _ _ _ hQ hK hV hM)),
      (h c).2.1.trans ((Cert.KernelIdeal.AttnArray.final5 m c).trans (Cert.Attn.attnKer_eq_attnRef _ _ _ hQ hK)),
      (h c).2.2⟩
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v15_eq, Cert.ReferenceIdeal.RefSpec.ref_out,
        (hagree c).1, (hagree c).2.1, (hagree c).2.2.1, (hagree c).2.2.2]
    · rw [(h c).2.1, Cert.ReferenceIdeal.Read.val_main_v14_eq, Cert.ReferenceIdeal.RefSpec.ref_attn,
        (hagree c).1, (hagree c).2.1, (hagree c).2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
